-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32x512 : Shape := ⟨3, ![4096, 32, 512]⟩
abbrev S32x256x512 : Shape := ⟨3, ![32, 256, 512]⟩
abbrev S4096x1x32 : Shape := ⟨3, ![4096, 1, 32]⟩
abbrev S32x256x256 : Shape := ⟨3, ![32, 256, 256]⟩
abbrev S_ : Shape := ⟨0, ![]⟩

class Facts : Prop where
  bcast_S_S4096x32x512 : S_.BroadcastsInDim S4096x32x512 (![] : Fin 0 → Fin S4096x32x512.rank)
  reducesTo_S4096x32x512_S_d0_1_2 : S4096x32x512.ReducesTo [0, 1, 2] S_
  h_S_ : 0 < S_.numel
  bcast_S_S32x256x512 : S_.BroadcastsInDim S32x256x512 (![] : Fin 0 → Fin S32x256x512.rank)
  reducesTo_S32x256x512_S_d0_1_2 : S32x256x512.ReducesTo [0, 1, 2] S_

variable [Facts]

def fn {F : FTy → Type} [FloatOps F] (main_arg0 : FVec F S4096x32x512 .f32) (main_arg1 : FVec F S32x256x512 .f32) (main_arg2 : IVec S4096x1x32 32) (main_arg3 : IVec S32x256x256 32) : IVec S_ 1 :=
  let main_v0 : FVec F S4096x32x512 .f32 := Host.absf main_arg0
  let main_cst : FVec F S_ .f32 := constant S_ .f32 0x7F800000#32
  let main_v1 : FVec F S4096x32x512 .f32 := broadcastInDim S4096x32x512 ![] bcast_S_S4096x32x512 main_cst
  let main_v2 : IVec S4096x32x512 1 := cmpf .olt main_v0 main_v1
  let main_c : IVec S_ 1 := constantI S_ 1 1#1
  let main_v3 : IVec S_ 1 := (fun x v => Host.reduce IntOp.andi x v reducesTo_S4096x32x512_S_d0_1_2 h_S_) main_v2 main_c
  let main_v4 : FVec F S32x256x512 .f32 := Host.absf main_arg1
  let main_cst_0 : FVec F S_ .f32 := constant S_ .f32 0x7F800000#32
  let main_v5 : FVec F S32x256x512 .f32 := broadcastInDim S32x256x512 ![] bcast_S_S32x256x512 main_cst_0
  let main_v6 : IVec S32x256x512 1 := cmpf .olt main_v4 main_v5
  let main_c_1 : IVec S_ 1 := constantI S_ 1 1#1
  let main_v7 : IVec S_ 1 := (fun x v => Host.reduce IntOp.andi x v reducesTo_S32x256x512_S_d0_1_2 h_S_) main_v6 main_c_1
  let main_v8 : IVec S_ 1 := andi main_v3 main_v7
  main_v8
-- ==== Kernel.lean ====
abbrev S4096x32x512 : Shape := ⟨3, ![4096, 32, 512]⟩
abbrev S32x256x512 : Shape := ⟨3, ![32, 256, 512]⟩
abbrev S4096x1x32 : Shape := ⟨3, ![4096, 1, 32]⟩
abbrev S32x256x256 : Shape := ⟨3, ![32, 256, 256]⟩
abbrev S_ : Shape := ⟨0, ![]⟩
abbrev S4096x1 : Shape := ⟨2, ![4096, 1]⟩
abbrev S4096x1x1 : Shape := ⟨3, ![4096, 1, 1]⟩
abbrev S4096x1x512 : Shape := ⟨3, ![4096, 1, 512]⟩
abbrev S4096x512 : Shape := ⟨2, ![4096, 512]⟩
abbrev S32x256 : Shape := ⟨2, ![32, 256]⟩
abbrev S32x256x1 : Shape := ⟨3, ![32, 256, 1]⟩
abbrev S32x256x4096 : Shape := ⟨3, ![32, 256, 4096]⟩
abbrev S1x128x512 : Shape := ⟨3, ![1, 128, 512]⟩
abbrev S1x128x4096 : Shape := ⟨3, ![1, 128, 4096]⟩
abbrev S128x512 : Shape := ⟨2, ![128, 512]⟩
abbrev S128 : Shape := ⟨1, ![128]⟩
abbrev S128x1 : Shape := ⟨2, ![128, 1]⟩
abbrev S1x512 : Shape := ⟨2, ![1, 512]⟩
abbrev S1x4096 : Shape := ⟨2, ![1, 4096]⟩
abbrev S128x4096 : Shape := ⟨2, ![128, 4096]⟩

abbrev nBuf : Space → Nat
  | .hbm => 28
  | .vmem => 5
  | .smem => 0
  | _ => 0

abbrev bufTy : (tb : Table) → Fin (tcTables nBuf tb) → BufTy
  | .hbm, ⟨0, _⟩ => ⟨S4096x32x512, .f32⟩
  | .hbm, ⟨1, _⟩ => ⟨S32x256x512, .f32⟩
  | .hbm, ⟨2, _⟩ => ⟨S4096x1x32, .i32⟩
  | .hbm, ⟨3, _⟩ => ⟨S32x256x256, .i32⟩
  | .hbm, ⟨4, _⟩ => ⟨S4096x1x32, .f32⟩
  | .hbm, ⟨5, _⟩ => ⟨S4096x1x32, .f32⟩
  | .hbm, ⟨6, _⟩ => ⟨S_, .f32⟩
  | .hbm, ⟨7, _⟩ => ⟨S4096x1, .f32⟩
  | .hbm, ⟨8, _⟩ => ⟨S4096x1x1, .f32⟩
  | .hbm, ⟨9, _⟩ => ⟨S_, .f32⟩
  | .hbm, ⟨10, _⟩ => ⟨S4096x1x1, .f32⟩
  | .hbm, ⟨11, _⟩ => ⟨S4096x1x1, .f32⟩
  | .hbm, ⟨12, _⟩ => ⟨S4096x1x32, .f32⟩
  | .hbm, ⟨13, _⟩ => ⟨S4096x1x32, .f32⟩
  | .hbm, ⟨14, _⟩ => ⟨S4096x1x512, .f32⟩
  | .hbm, ⟨15, _⟩ => ⟨S4096x512, .f32⟩
  | .hbm, ⟨16, _⟩ => ⟨S32x256x256, .f32⟩
  | .hbm, ⟨17, _⟩ => ⟨S32x256x256, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x256, .f32⟩
  | .hbm, ⟨25, _⟩ => ⟨S32x256x256, .f32⟩
  | .hbm, ⟨26, _⟩ => ⟨S32x256x512, .f32⟩
  | .hbm, ⟨27, _⟩ => ⟨S32x256x4096, .f32⟩
  | .local _ .vmem, ⟨0, _⟩ => ⟨S1x128x512, .f32⟩
  | .local _ .vmem, ⟨1, _⟩ => ⟨S1x128x512, .f32⟩
  | .local _ .vmem, ⟨2, _⟩ => ⟨S4096x512, .f32⟩
  | .local _ .vmem, ⟨3, _⟩ => ⟨S1x128x4096, .f32⟩
  | .local _ .vmem, ⟨4, _⟩ => ⟨S1x128x4096, .f32⟩
  | _, _ => ⟨S4096x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4096x1x32_S4096x1_d2 : S4096x1x32.ReducesTo [2] S4096x1
  h_S_ : 0 < S_.numel
  bcast_S4096x1_S4096x1x1_0_1 : S4096x1.BroadcastsInDim S4096x1x1 (![0, 1] : Fin 2 → Fin S4096x1x1.rank)
  bcast_S_S4096x1x1 : S_.BroadcastsInDim S4096x1x1 (![] : Fin 0 → Fin S4096x1x1.rank)
  bcast_S4096x1x1_S4096x1x32_0_1_2 : S4096x1x1.BroadcastsInDim S4096x1x32 (![0, 1, 2] : Fin 3 → Fin S4096x1x32.rank)
  shapeCasts_S4096x1x512_S4096x512 : S4096x1x512.ShapeCasts S4096x512
  reducesTo_S32x256x256_S32x256_d2 : S32x256x256.ReducesTo [2] S32x256
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x256_0_1_2 : S32x256x1.BroadcastsInDim S32x256x256 (![0, 1, 2] : Fin 3 → Fin S32x256x256.rank)
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S128x512_S128 : S128x512.Reduces [1] S128
  shapeCasts_S128_S128x1 : S128.ShapeCasts S128x1
  bitsLt_bf16_f32 : FTy.bits .bf16 < FTy.bits .f32
  broadcasts_S128x1_S128x4096 : S128x1.Broadcasts S128x4096
  broadcasts_S1x4096_S128x4096 : S1x4096.Broadcasts S128x4096
  reduces_S128x4096_S128 : S128x4096.Reduces [1] S128
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  dot_S4096x1x32_S4096x32x512_S4096x1x512_2_1_1_2_0_0_wf : DotDims.WF S4096x1x32 S4096x32x512 S4096x1x512 [2] [1] [1] [2] [0] [0]
  dot_S32x256x256_S32x256x512_S32x256x512_2_1_1_2_0_0_wf : DotDims.WF S32x256x256 S32x256x512 S32x256x512 [2] [1] [1] [2] [0] [0]
  dot_S1x512_S4096x512_S1x4096_1_1_0_0_n_n_wf : DotDims.WF S1x512 S4096x512 S1x4096 [1] [1] [0] [0] [] []
  dot_S128x512_S4096x512_S128x4096_1_1_0_0_n_n_wf : DotDims.WF S128x512 S4096x512 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S32x256x512.size a
  hwx0_0 : ∀ i : grid0.Coords, EltTy.bits .f32 = 32 ∨ (Rect.block (s := S32x256x512) S1x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S32x256x4096.size a
  hwx0_2 : ∀ i : grid0.Coords, EltTy.bits .f32 = 32 ∨ (Rect.block (s := S32x256x4096) S1x128x4096.size (cc0_transform_2 i) (hinb0_2 i)).WholeWords (EltTy.packing .f32)

variable [Facts₀]

def dot_S4096x1x32_S4096x32x512_S4096x1x512_2_1_1_2_0_0 : DotDims S4096x1x32 S4096x32x512 S4096x1x512 where
  lhsContracting := [2]
  rhsContracting := [1]
  lhsNonContracting := [1]
  rhsNonContracting := [2]
  lhsBatch := [0]
  rhsBatch := [0]
  wf := dot_S4096x1x32_S4096x32x512_S4096x1x512_2_1_1_2_0_0_wf
def dot_S32x256x256_S32x256x512_S32x256x512_2_1_1_2_0_0 : DotDims S32x256x256 S32x256x512 S32x256x512 where
  lhsContracting := [2]
  rhsContracting := [1]
  lhsNonContracting := [1]
  rhsNonContracting := [2]
  lhsBatch := [0]
  rhsBatch := [0]
  wf := dot_S32x256x256_S32x256x512_S32x256x512_2_1_1_2_0_0_wf
def dot_S1x512_S4096x512_S1x4096_1_1_0_0_n_n : DotDims S1x512 S4096x512 S1x4096 where
  lhsContracting := [1]
  rhsContracting := [1]
  lhsNonContracting := [0]
  rhsNonContracting := [0]
  lhsBatch := []
  rhsBatch := []
  wf := dot_S1x512_S4096x512_S1x4096_1_1_0_0_n_n_wf
def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf

abbrev win0_0 : Pipeline.Window sig grid0 :=
  Pipeline.Window.ofSpec (Memref.whole main_v18) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32x512 : Shape := ⟨3, ![4096, 32, 512]⟩
abbrev S32x256x512 : Shape := ⟨3, ![32, 256, 512]⟩
abbrev S4096x1x32 : Shape := ⟨3, ![4096, 1, 32]⟩
abbrev S32x256x256 : Shape := ⟨3, ![32, 256, 256]⟩
abbrev S_ : Shape := ⟨0, ![]⟩
abbrev S4096x1 : Shape := ⟨2, ![4096, 1]⟩
abbrev S4096x1x1 : Shape := ⟨3, ![4096, 1, 1]⟩
abbrev S4096x1x512 : Shape := ⟨3, ![4096, 1, 512]⟩
abbrev S4096x512 : Shape := ⟨2, ![4096, 512]⟩
abbrev S32x256 : Shape := ⟨2, ![32, 256]⟩
abbrev S32x256x1 : Shape := ⟨3, ![32, 256, 1]⟩
abbrev S4096 : Shape := ⟨1, ![4096]⟩
abbrev S32x256x4096 : Shape := ⟨3, ![32, 256, 4096]⟩
abbrev S1x1x4096 : Shape := ⟨3, ![1, 1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x32x512, .f32⟩
  | .hbm, ⟨1, _⟩ => ⟨S32x256x512, .f32⟩
  | .hbm, ⟨2, _⟩ => ⟨S4096x1x32, .i32⟩
  | .hbm, ⟨3, _⟩ => ⟨S32x256x256, .i32⟩
  | .hbm, ⟨4, _⟩ => ⟨S4096x1x32, .f32⟩
  | .hbm, ⟨5, _⟩ => ⟨S4096x1x32, .f32⟩
  | .hbm, ⟨6, _⟩ => ⟨S_, .f32⟩
  | .hbm, ⟨7, _⟩ => ⟨S4096x1, .f32⟩
  | .hbm, ⟨8, _⟩ => ⟨S4096x1x1, .f32⟩
  | .hbm, ⟨9, _⟩ => ⟨S_, .f32⟩
  | .hbm, ⟨10, _⟩ => ⟨S4096x1x1, .f32⟩
  | .hbm, ⟨11, _⟩ => ⟨S4096x1x1, .f32⟩
  | .hbm, ⟨12, _⟩ => ⟨S4096x1x32, .f32⟩
  | .hbm, ⟨13, _⟩ => ⟨S4096x1x32, .f32⟩
  | .hbm, ⟨14, _⟩ => ⟨S4096x1x512, .f32⟩
  | .hbm, ⟨15, _⟩ => ⟨S4096x512, .f32⟩
  | .hbm, ⟨16, _⟩ => ⟨S32x256x256, .f32⟩
  | .hbm, ⟨17, _⟩ => ⟨S32x256x256, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x256, .f32⟩
  | .hbm, ⟨25, _⟩ => ⟨S32x256x256, .f32⟩
  | .hbm, ⟨26, _⟩ => ⟨S32x256x512, .f32⟩
  | .hbm, ⟨27, _⟩ => ⟨S32x256x512, .f32⟩
  | .hbm, ⟨28, _⟩ => ⟨S_, .f32⟩
  | .hbm, ⟨29, _⟩ => ⟨S32x256, .f32⟩
  | .hbm, ⟨30, _⟩ => ⟨S4096x512, .f32⟩
  | .hbm, ⟨31, _⟩ => ⟨S_, .f32⟩
  | .hbm, ⟨32, _⟩ => ⟨S4096, .f32⟩
  | .hbm, ⟨33, _⟩ => ⟨S32x256x4096, .f32⟩
  | .hbm, ⟨34, _⟩ => ⟨S32x256x1, .f32⟩
  | .hbm, ⟨35, _⟩ => ⟨S1x1x4096, .f32⟩
  | .hbm, ⟨36, _⟩ => ⟨S32x256x4096, .f32⟩
  | .hbm, ⟨37, _⟩ => ⟨S32x256x4096, .f32⟩
  | .hbm, ⟨38, _⟩ => ⟨S32x256x4096, .f32⟩
  | .hbm, ⟨39, _⟩ => ⟨S_, .f32⟩
  | .hbm, ⟨40, _⟩ => ⟨S32x256x4096, .f32⟩
  | .hbm, ⟨41, _⟩ => ⟨S32x256x4096, .f32⟩
  | .hbm, ⟨42, _⟩ => ⟨S32x256x4096, .f32⟩
  | .hbm, ⟨43, _⟩ => ⟨S_, .f32⟩
  | .hbm, ⟨44, _⟩ => ⟨S32x256x4096, .f32⟩
  | .hbm, ⟨45, _⟩ => ⟨S32x256x4096, .f32⟩
  | .hbm, ⟨46, _⟩ => ⟨S32x256x4096, .f32⟩
  | .hbm, ⟨47, _⟩ => ⟨S32x256x4096, .f32⟩
  | .hbm, ⟨48, _⟩ => ⟨S32x256x4096, .f32⟩
  | .hbm, ⟨49, _⟩ => ⟨S32x256x4096, .f32⟩
  | .hbm, ⟨50, _⟩ => ⟨S_, .f32⟩
  | .hbm, ⟨51, _⟩ => ⟨S32x256, .f32⟩
  | .hbm, ⟨52, _⟩ => ⟨S32x256x1, .f32⟩
  | .hbm, ⟨53, _⟩ => ⟨S_, .f32⟩
  | .hbm, ⟨54, _⟩ => ⟨S32x256x1, .f32⟩
  | .hbm, ⟨55, _⟩ => ⟨S32x256x1, .f32⟩
  | .hbm, ⟨56, _⟩ => ⟨S32x256x4096, .f32⟩
  | .hbm, ⟨57, _⟩ => ⟨S32x256x4096, .f32⟩
  | _, _ => ⟨S4096x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  reducesTo_S4096x1x32_S4096x1_d2 : S4096x1x32.ReducesTo [2] S4096x1
  h_S_ : 0 < S_.numel
  bcast_S4096x1_S4096x1x1_0_1 : S4096x1.BroadcastsInDim S4096x1x1 (![0, 1] : Fin 2 → Fin S4096x1x1.rank)
  bcast_S_S4096x1x1 : S_.BroadcastsInDim S4096x1x1 (![] : Fin 0 → Fin S4096x1x1.rank)
  bcast_S4096x1x1_S4096x1x32_0_1_2 : S4096x1x1.BroadcastsInDim S4096x1x32 (![0, 1, 2] : Fin 3 → Fin S4096x1x32.rank)
  shapeCasts_S4096x1x512_S4096x512 : S4096x1x512.ShapeCasts S4096x512
  reducesTo_S32x256x256_S32x256_d2 : S32x256x256.ReducesTo [2] S32x256
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x256_0_1_2 : S32x256x1.BroadcastsInDim S32x256x256 (![0, 1, 2] : Fin 3 → Fin S32x256x256.rank)
  reducesTo_S32x256x512_S32x256_d2 : S32x256x512.ReducesTo [2] S32x256
  reducesTo_S4096x512_S4096_d1 : S4096x512.ReducesTo [1] S4096
  bcast_S4096_S1x1x4096_2 : S4096.BroadcastsInDim S1x1x4096 (![2] : Fin 1 → Fin S1x1x4096.rank)
  bcast_S32x256x1_S32x256x4096_0_1_2 : S32x256x1.BroadcastsInDim S32x256x4096 (![0, 1, 2] : Fin 3 → Fin S32x256x4096.rank)
  bcast_S1x1x4096_S32x256x4096_0_1_2 : S1x1x4096.BroadcastsInDim S32x256x4096 (![0, 1, 2] : Fin 3 → Fin S32x256x4096.rank)
  bcast_S_S32x256x4096 : S_.BroadcastsInDim S32x256x4096 (![] : Fin 0 → Fin S32x256x4096.rank)
  reducesTo_S32x256x4096_S32x256_d2 : S32x256x4096.ReducesTo [2] S32x256
  dot_S4096x1x32_S4096x32x512_S4096x1x512_2_1_1_2_0_0_wf : DotDims.WF S4096x1x32 S4096x32x512 S4096x1x512 [2] [1] [1] [2] [0] [0]
  dot_S32x256x256_S32x256x512_S32x256x512_2_1_1_2_0_0_wf : DotDims.WF S32x256x256 S32x256x512 S32x256x512 [2] [1] [1] [2] [0] [0]
  dot_S32x256x512_S4096x512_S32x256x4096_2_1_01_0_n_n_wf : DotDims.WF S32x256x512 S4096x512 S32x256x4096 [2] [1] [0, 1] [0] [] []

variable [Facts₀]

def dot_S4096x1x32_S4096x32x512_S4096x1x512_2_1_1_2_0_0 : DotDims S4096x1x32 S4096x32x512 S4096x1x512 where
  lhsContracting := [2]
  rhsContracting := [1]
  lhsNonContracting := [1]
  rhsNonContracting := [2]
  lhsBatch := [0]
  rhsBatch := [0]
  wf := dot_S4096x1x32_S4096x32x512_S4096x1x512_2_1_1_2_0_0_wf
def dot_S32x256x256_S32x256x512_S32x256x512_2_1_1_2_0_0 : DotDims S32x256x256 S32x256x512 S32x256x512 where
  lhsContracting := [2]
  rhsContracting := [1]
  lhsNonContracting := [1]
  rhsNonContracting := [2]
  lhsBatch := [0]
  rhsBatch := [0]
  wf := dot_S32x256x256_S32x256x512_S32x256x512_2_1_1_2_0_0_wf
def dot_S32x256x512_S4096x512_S32x256x4096_2_1_01_0_n_n : DotDims S32x256x512 S4096x512 S32x256x4096 where
  lhsContracting := [2]
  rhsContracting := [1]
  lhsNonContracting := [0, 1]
  rhsNonContracting := [0]
  lhsBatch := []
  rhsBatch := []
  wf := dot_S32x256x512_S4096x512_S32x256x4096_2_1_01_0_n_n_wf

class Facts : Prop extends Facts₀ where

variable [Facts]
-- ==== Proof.DistWeights.lean ====
/-
  The mathematics of this certificate, with no program in sight.

  For a row `u : Fin 512 → EReal` (one target read-out vector) and a table `S : Fin 4096 → Fin 512 → EReal`
  (the source read-out vectors), the squared Euclidean distance from `u` to row `n` of `S` is written in its
  expanded form `‖u‖² + ‖S n‖² − 2·⟨u, S n⟩`, clamped below by `ε`; its weight is `exp (−√·)`; and the row of
  weights is divided by its own sum, again clamped below by `ε`.  `ε` and `2` are kept as the float words both
  programs print, so neither is ever evaluated.

  Two facts about the extended reals are all the algebra the certificate needs: the exponential is
  nonnegative at every extended real (`exp ⊥ = 0`, `exp ⊤ = ⊤`), so its absolute value `max e (−e)` is itself;
  hence summing the weights and summing their absolute values are one sum.
-/
import Idealize.ShloMosaic.PureOps.Ideal
import Idealize.ShloMosaic.PureOps.Ideal.Laws
import Idealize.ShloMosaic.Lib.ValueIdx

noncomputable section

namespace Cert.DistWeights

open Idealize.ShloMosaic Idealize.ShloMosaic.ValueIdx

/-- The clamp `ε`: the float word both programs print for `1e-12`. -/
abbrev eps : EReal := Ideal.ofBits .f32 0x2B8CBCCC#32
/-- The factor of the cross term: the float word for `2.0`. -/
abbrev two : EReal := Ideal.ofBits .f32 0x40000000#32

/-- `‖u‖² + ‖S n‖² − 2·⟨u, S n⟩`: the squared distance from `u` to row `n` of `S`, expanded. -/
def sqDist (u : Fin 512 → EReal) (S : Fin 4096 → Fin 512 → EReal) (n : Fin 4096) : EReal :=
  ((∑ d : Fin 512, u d * u d) + (∑ d : Fin 512, S n d * S n d)) - two * ∑ d : Fin 512, u d * S n d

/-- `exp (−√(max d² ε))`: the weight of row `n` of `S` seen from `u`. -/
def weight (u : Fin 512 → EReal) (S : Fin 4096 → Fin 512 → EReal) (n : Fin 4096) : EReal :=
  Ideal.exp (-(Ideal.sqrt (max (sqDist u S n) eps)))

/-- The weight divided by the (clamped) sum of the row's weights. -/
def normWeight (u : Fin 512 → EReal) (S : Fin 4096 → Fin 512 → EReal) (n : Fin 4096) : EReal :=
  Ideal.div (weight u S n) (max (∑ k : Fin 4096, weight u S k) eps)

/-- The exponential is nonnegative at every extended real. -/
theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- So a weight is its own absolute value. -/
theorem abs_weight (u : Fin 512 → EReal) (S : Fin 4096 → Fin 512 → EReal) (n : Fin 4096) :
    max (weight u S n) (-(weight u S n)) = weight u S n :=
  max_eq_left ((EReal.neg_le_neg_iff.mpr (exp_nonneg _)).trans (by rw [neg_zero]; exact exp_nonneg _))

/-- The whole result array as one function of the two read-out arrays: entry `(b, r, n)` is the normalised
    weight of source row `n` seen from target row `(b, r)`. -/
def G (T : (⟨3, ![32, 256, 512]⟩ : Shape).Idx → EReal) (S : (⟨2, ![4096, 512]⟩ : Shape).Idx → EReal) :
    (⟨3, ![32, 256, 4096]⟩ : Shape).Idx → EReal :=
  fun i => normWeight (fun d => T (ix3 (⟨(i 0).val, (i 0).isLt⟩ : Fin 32) (⟨(i 1).val, (i 1).isLt⟩ : Fin 256) d))
    (fun n d => S (ix2 n d)) (⟨(i 2).val, (i 2).isLt⟩ : Fin 4096)

/-- `G` at an index given by its coordinates. -/
theorem G_ix3 (T : (⟨3, ![32, 256, 512]⟩ : Shape).Idx → EReal) (S : (⟨2, ![4096, 512]⟩ : Shape).Idx → EReal)
    (b : Fin 32) (r : Fin 256) (n : Fin 4096) :
    G T S (ix3 b r n) = normWeight (fun d => T (ix3 b r d)) (fun n d => S (ix2 n d)) n := rfl

end Cert.DistWeights

end
-- ==== Proof.RefIsG.lean ====
/-
  The reference's result array is `G` of its two read-out arrays.

  Read one operation at a time at an index `(b, r, n)`: the two squared norms are sums over the feature axis
  started from the float zero, the cross term is the contraction of target row `(b, r)` with source row `n`,
  and the three are combined, clamped, rooted, negated and exponentiated exactly as `weight` does.  The
  normaliser is the sum over `n` of the ABSOLUTE VALUES of the weights; a weight is an exponential, hence
  nonnegative, hence its own absolute value, so the normaliser is the plain sum `normWeight` divides by.
-/
import proofs.«127764_j66271345377340_1_alg».proof.Proof.Gen.ReferenceIdeal.Read
import proofs.«127764_j66271345377340_1_alg».proof.Proof.DistWeights

noncomputable section

namespace Cert.ReferenceIdeal.RefValue

open Cert.ReferenceIdeal Cert.ReferenceIdeal.Read Idealize.ShloMosaic Idealize.ShloMosaic.ValueIdx Cert.DistWeights

/-! ## The index functions of the reference's layout operations, at coordinates -/

section
variable (b : Fin 32) (r : Fin 256) (n : Fin 4096) (u v : Fin 1) (k : Fin 512) (j : Fin 4096)

theorem idx26 : idx_main_v26 (ix3 b r n) = ix3 b r (0 : Fin 1) :=
  funext fun a => by match a with | ⟨0, _⟩ => rfl | ⟨1, _⟩ => rfl | ⟨2, _⟩ => rfl
theorem idx24 : idx_main_v24 (ix3 b r u) = ix2 b r :=
  funext fun a => by match a with | ⟨0, _⟩ => rfl | ⟨1, _⟩ => rfl
theorem idx20 : idx_main_v20 (ix2 b r) k = ix3 b r k :=
  funext fun a => by match a with | ⟨0, _⟩ => rfl | ⟨1, _⟩ => rfl | ⟨2, _⟩ => rfl
theorem idx27 : idx_main_v27 (ix3 b r n) = ix3 (0 : Fin 1) (0 : Fin 1) n :=
  funext fun a => by match a with | ⟨0, _⟩ => rfl | ⟨1, _⟩ => rfl | ⟨2, _⟩ => rfl
theorem idx25 : idx_main_v25 (ix3 u v n) = ix1 n :=
  funext fun a => by match a with | ⟨0, _⟩ => rfl
theorem idx22 : idx_main_v22 (ix1 n) k = ix2 n k :=
  funext fun a => by match a with | ⟨0, _⟩ => rfl | ⟨1, _⟩ => rfl
theorem lidx23 : lidx_main_v23 (ix3 b r n) k = ix3 b r k :=
  funext fun a => by match a with | ⟨0, _⟩ => rfl | ⟨1, _⟩ => rfl | ⟨2, _⟩ => rfl
theorem ridx23 : ridx_main_v23 (ix3 b r n) k = ix2 n k :=
  funext fun a => by match a with | ⟨0, _⟩ => rfl | ⟨1, _⟩ => rfl
theorem idx42 : idx_main_v42 (ix3 b r n) = ix3 b r (0 : Fin 1) :=
  funext fun a => by match a with | ⟨0, _⟩ => rfl | ⟨1, _⟩ => rfl | ⟨2, _⟩ => rfl
theorem idx39 : idx_main_v39 (ix3 b r u) = ix2 b r :=
  funext fun a => by match a with | ⟨0, _⟩ => rfl | ⟨1, _⟩ => rfl
theorem idx38 : idx_main_v38 (ix2 b r) j = ix3 b r j :=
  funext fun a => by match a with | ⟨0, _⟩ => rfl | ⟨1, _⟩ => rfl | ⟨2, _⟩ => rfl
end

/-! ## The weight, then the normalised weight -/

variable (x0 : (⟨S4096x32x512, .f32⟩ : BufTy).Contents (Elt Ideal)) (x1 : (⟨S32x256x512, .f32⟩ : BufTy).Contents (Elt Ideal))
  (x2 : (⟨S4096x1x32, .i32⟩ : BufTy).Contents (Elt Ideal)) (x3 : (⟨S32x256x256, .i32⟩ : BufTy).Contents (Elt Ideal))

/-- The exponentiated negated distance at `(b, r, n)` is the weight of source row `n` seen from target row `(b, r)`. -/
theorem weight_at (b : Fin 32) (r : Fin 256) (n : Fin 4096) :
    val_main_v36 (F := Ideal) x0 x1 x2 x3 (ix3 b r n)
      = weight (fun d => val_main_v18 (F := Ideal) x1 x3 (ix3 b r d)) (fun n d => val_main_v9 (F := Ideal) x0 x2 (ix2 n d)) n := by
  rw [val_main_v36_apply, val_main_v35_apply, val_main_v34_apply, val_main_v33_apply, val_main_v31_apply,
    val_main_v28_apply, val_main_v30_apply, val_main_v26_apply, val_main_v24_apply, val_main_v20_apply,
    val_main_v27_apply, val_main_v25_apply, val_main_v22_apply, val_main_v23_apply, val_main_v29_apply, val_main_v32_apply]
  simp only [idx26, idx24, idx20, idx27, idx25, idx22, lidx23, ridx23, val_main_v19_apply, val_main_v21_apply,
    val_main_cst_3_apply, val_main_cst_4_apply, val_main_cst_5_apply, val_main_cst_6_apply,
    Ideal.hostUnary_exp_def, Ideal.hostNegf_def, Ideal.negf_def, Ideal.hostUnary_sqrt_def, Ideal.maximumf_def,
    Ideal.subf_def, Ideal.addf_def, Ideal.mulf_def, Ideal.ofBits_def, Ideal.ofBits_zero_f32, zero_add]
  rfl

/-- The reference's result at `(b, r, n)` is `G` there. -/
theorem result_at (b : Fin 32) (r : Fin 256) (n : Fin 4096) :
    val_main_v43 (F := Ideal) x0 x1 x2 x3 (ix3 b r n)
      = G (val_main_v18 (F := Ideal) x1 x3) (val_main_v9 (F := Ideal) x0 x2) (ix3 b r n) := by
  rw [G_ix3, val_main_v43_apply, val_main_v42_apply, val_main_v41_apply, val_main_v39_apply, val_main_v38_apply,
    val_main_v40_apply]
  simp only [idx42, idx39, idx38, val_main_v37_apply, val_main_cst_7_apply, val_main_cst_8_apply, weight_at,
    Ideal.hostAbsf_def, Ideal.absf_def, abs_weight, Ideal.hostDivf_def, Ideal.maximumf_def, Ideal.ofBits_def,
    Ideal.ofBits_zero_f32, zero_add]
  rfl

/-- The reference's result array is `G` of its two read-out arrays. -/
theorem result_eq :
    val_main_v43 (F := Ideal) x0 x1 x2 x3 = G (val_main_v18 (F := Ideal) x1 x3) (val_main_v9 (F := Ideal) x0 x2) := by
  funext i
  obtain ⟨b, r, n, rfl⟩ : ∃ (b : Fin 32) (r : Fin 256) (n : Fin 4096), i = ix3 b r n := ⟨i 0, i 1, i 2, eq_ix3 i⟩
  exact result_at x0 x1 x2 x3 b r n

end Cert.ReferenceIdeal.RefValue

end
-- ==== Proof.LibLayout.lean ====
/-
  Layout operations of small shapes read at an index built from coordinates: a column [a, 1] broadcast along the
  second axis, and a vector [a] cast to the column [a, 1].
-/
import Idealize.ShloMosaic.Lib.Pipeline.Value
import Idealize.ShloMosaic.Lib.ValueIdx

namespace Cert.Layout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Layout
-- ==== Proof.LibLaneSum.lean ====
/-
  A lane sum read at an index built from coordinates: the sum along the second axis of a two-axis block, started
  from the float zero, is at row `p` the sum over the lane coordinate of the block's entries in that row.
-/
import Idealize.ShloMosaic.Lib.ValueIdx
import Idealize.ShloMosaic.PureOps.Ideal.Laws

namespace Cert.LaneSum

open Idealize.ShloMosaic Idealize.ShloMosaic.ValueIdx

/-- The sum along the second axis of an `[a, k]` block of exact values, at row `p`: `∑ d, src (p, d)`.  The zero
    accumulator's proof is typed as a printed program carries it (`0 = 0` on the words). -/
theorem laneSum_apply {a k : ℕ} (src : FVec Ideal ⟨2, ![a, k]⟩ .f32)
    (h : (⟨2, ![a, k]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin k, src (ix2 p d) := by
  refine (Ideal.multiReduction_add_single src 0x00000000#32 h hφ hacc (ix1 p)).trans ?_
  exact Finset.sum_congr rfl fun d _ => congrArg src (funext fun ax => by
    match ax with
    | ⟨0, _⟩ => rfl
    | ⟨1, _⟩ => rfl)

end Cert.LaneSum
-- ==== Proof.RowOps.lean ====
/-
  The kernel body's two matrix products, each read at an index built from coordinates.

  * A matrix product `A · Bᵀ` (both operands contracted along their second axis) into a zero accumulator is, at
    `(p, n)`, the sum over `d` of `A (p, d) · B (n, d)`.  The body uses it twice: once with a single row of ones
    for `A` (which gives the squared norms of `B`'s rows as a row vector) and once with the target block for `A`.
-/
import proofs.«127764_j66271345377340_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.RowOps

open Cert.KernelIdeal Idealize.ShloMosaic Idealize.ShloMosaic.ValueIdx

/-! ## The ones-row product: squared norms as a row -/

theorem lhsRow_0 (i : S1x4096.Idx) (q : dot_S1x512_S4096x512_S1x4096_1_1_0_0_n_n.contr.Idx) :
    (dot_S1x512_S4096x512_S1x4096_1_1_0_0_n_n.lhsIdx i q 0).val = (i 0).val := by
  unfold DotDims.lhsIdx
  rw [dif_neg (show ¬(0 : Fin S1x512.rank) ∈ dot_S1x512_S4096x512_S1x4096_1_1_0_0_n_n.lhsBatch by decide),
    dif_pos (show (0 : Fin S1x512.rank) ∈ dot_S1x512_S4096x512_S1x4096_1_1_0_0_n_n.lhsNonContracting by decide)]
  rfl
theorem lhsRow_1 (i : S1x4096.Idx) (q : dot_S1x512_S4096x512_S1x4096_1_1_0_0_n_n.contr.Idx) :
    (dot_S1x512_S4096x512_S1x4096_1_1_0_0_n_n.lhsIdx i q 1).val = (q ⟨0, by decide⟩).val :=
  dot_S1x512_S4096x512_S1x4096_1_1_0_0_n_n.lhsIdx_val_of_single rfl i q
theorem rhsRow_0 (i : S1x4096.Idx) (q : dot_S1x512_S4096x512_S1x4096_1_1_0_0_n_n.contr.Idx) :
    (dot_S1x512_S4096x512_S1x4096_1_1_0_0_n_n.rhsIdx i q 0).val = (i 1).val := by
  unfold DotDims.rhsIdx
  rw [dif_neg (show ¬(0 : Fin S4096x512.rank) ∈ dot_S1x512_S4096x512_S1x4096_1_1_0_0_n_n.rhsBatch by decide),
    dif_pos (show (0 : Fin S4096x512.rank) ∈ dot_S1x512_S4096x512_S1x4096_1_1_0_0_n_n.rhsNonContracting by decide)]
  rfl
theorem rhsRow_1 (i : S1x4096.Idx) (q : dot_S1x512_S4096x512_S1x4096_1_1_0_0_n_n.contr.Idx) :
    (dot_S1x512_S4096x512_S1x4096_1_1_0_0_n_n.rhsIdx i q 1).val = (q ⟨0, by decide⟩).val :=
  dot_S1x512_S4096x512_S1x4096_1_1_0_0_n_n.rhsIdx_val_of_single rfl i q

/-- A `[1, 512]` row times the transpose of a `[4096, 512]` table, at `(u, n)`. -/
theorem rowProduct_apply (A : FVec Ideal S1x512 .f32) (B : FVec Ideal S4096x512 .f32) (u : Fin 1) (n : Fin 4096) :
    matmul dot_S1x512_S4096x512_S1x4096_1_1_0_0_n_n none A B (constant (F := Ideal) S1x4096 .f32 0x00000000#32) (ix2 u n)
      = ∑ d : Fin 512, A (ix2 u d) * B (ix2 n d) := by
  simp only [matmul]
  rw [Ideal.matmul_constant_zero_apply,
    ← Equiv.sum_comp (contrEquiv1 dot_S1x512_S4096x512_S1x4096_1_1_0_0_n_n 512 rfl rfl).symm]
  refine Finset.sum_congr rfl fun k _ => ?_
  have hk := contrEquiv1_symm_val dot_S1x512_S4096x512_S1x4096_1_1_0_0_n_n 512 rfl rfl k
  have el : dot_S1x512_S4096x512_S1x4096_1_1_0_0_n_n.lhsIdx (ix2 u n) ((contrEquiv1 dot_S1x512_S4096x512_S1x4096_1_1_0_0_n_n 512 rfl rfl).symm k) = ix2 u k :=
    funext fun a => Fin.ext (by
      match a with
      | ⟨0, _⟩ => exact lhsRow_0 _ _
      | ⟨1, _⟩ => exact (lhsRow_1 _ _).trans hk)
  have er : dot_S1x512_S4096x512_S1x4096_1_1_0_0_n_n.rhsIdx (ix2 u n) ((contrEquiv1 dot_S1x512_S4096x512_S1x4096_1_1_0_0_n_n 512 rfl rfl).symm k) = ix2 n k :=
    funext fun a => Fin.ext (by
      match a with
      | ⟨0, _⟩ => exact rhsRow_0 _ _
      | ⟨1, _⟩ => exact (rhsRow_1 _ _).trans hk)
  rw [el, er]

/-! ## The cross product of the target block with the source table -/

theorem lhsCross_0 (i : S128x4096.Idx) (q : dot_S128x512_S4096x512_S128x4096_1_1_0_0_n_n.contr.Idx) :
    (dot_S128x512_S4096x512_S128x4096_1_1_0_0_n_n.lhsIdx i q 0).val = (i 0).val := by
  unfold DotDims.lhsIdx
  rw [dif_neg (show ¬(0 : Fin S128x512.rank) ∈ dot_S128x512_S4096x512_S128x4096_1_1_0_0_n_n.lhsBatch by decide),
    dif_pos (show (0 : Fin S128x512.rank) ∈ dot_S128x512_S4096x512_S128x4096_1_1_0_0_n_n.lhsNonContracting by decide)]
  rfl
theorem lhsCross_1 (i : S128x4096.Idx) (q : dot_S128x512_S4096x512_S128x4096_1_1_0_0_n_n.contr.Idx) :
    (dot_S128x512_S4096x512_S128x4096_1_1_0_0_n_n.lhsIdx i q 1).val = (q ⟨0, by decide⟩).val :=
  dot_S128x512_S4096x512_S128x4096_1_1_0_0_n_n.lhsIdx_val_of_single rfl i q
theorem rhsCross_0 (i : S128x4096.Idx) (q : dot_S128x512_S4096x512_S128x4096_1_1_0_0_n_n.contr.Idx) :
    (dot_S128x512_S4096x512_S128x4096_1_1_0_0_n_n.rhsIdx i q 0).val = (i 1).val := by
  unfold DotDims.rhsIdx
  rw [dif_neg (show ¬(0 : Fin S4096x512.rank) ∈ dot_S128x512_S4096x512_S128x4096_1_1_0_0_n_n.rhsBatch by decide),
    dif_pos (show (0 : Fin S4096x512.rank) ∈ dot_S128x512_S4096x512_S128x4096_1_1_0_0_n_n.rhsNonContracting by decide)]
  rfl
theorem rhsCross_1 (i : S128x4096.Idx) (q : dot_S128x512_S4096x512_S128x4096_1_1_0_0_n_n.contr.Idx) :
    (dot_S128x512_S4096x512_S128x4096_1_1_0_0_n_n.rhsIdx i q 1).val = (q ⟨0, by decide⟩).val :=
  dot_S128x512_S4096x512_S128x4096_1_1_0_0_n_n.rhsIdx_val_of_single rfl i q

/-- A `[128, 512]` block times the transpose of a `[4096, 512]` table, at `(p, n)`, whatever the operands' float
    formats (at the exact values a change of format is the identity). -/
theorem crossProduct_apply {φ₁ φ₂ : FTy} (A : FVec Ideal S128x512 φ₁) (B : FVec Ideal S4096x512 φ₂) (p : Fin 128) (n : Fin 4096) :
    matmul dot_S128x512_S4096x512_S128x4096_1_1_0_0_n_n none A B (constant (F := Ideal) S128x4096 .f32 0x00000000#32) (ix2 p n)
      = ∑ d : Fin 512, A (ix2 p d) * B (ix2 n d) := by
  simp only [matmul]
  rw [Ideal.matmul_constant_zero_apply,
    ← Equiv.sum_comp (contrEquiv1 dot_S128x512_S4096x512_S128x4096_1_1_0_0_n_n 512 rfl rfl).symm]
  refine Finset.sum_congr rfl fun k _ => ?_
  have hk := contrEquiv1_symm_val dot_S128x512_S4096x512_S128x4096_1_1_0_0_n_n 512 rfl rfl k
  have el : dot_S128x512_S4096x512_S128x4096_1_1_0_0_n_n.lhsIdx (ix2 p n) ((contrEquiv1 dot_S128x512_S4096x512_S128x4096_1_1_0_0_n_n 512 rfl rfl).symm k) = ix2 p k :=
    funext fun a => Fin.ext (by
      match a with
      | ⟨0, _⟩ => exact lhsCross_0 _ _
      | ⟨1, _⟩ => exact (lhsCross_1 _ _).trans hk)
  have er : dot_S128x512_S4096x512_S128x4096_1_1_0_0_n_n.rhsIdx (ix2 p n) ((contrEquiv1 dot_S128x512_S4096x512_S128x4096_1_1_0_0_n_n 512 rfl rfl).symm k) = ix2 n k :=
    funext fun a => Fin.ext (by
      match a with
      | ⟨0, _⟩ => exact rhsCross_0 _ _
      | ⟨1, _⟩ => exact (rhsCross_1 _ _).trans hk)
  rw [el, er]

end Cert.KernelIdeal.RowOps

end
-- ==== Proof.KernelRow.lean ====
/-
  What the kernel body stores, at an index.

  The body works on one block of 128 target read-out rows `x0 : [1, 128, 512]` and the whole source table
  `x1 : [4096, 512]`.  It forms, for block row `p` and source row `n`: the squared norm of the target row (a lane
  sum, as a column), the squared norm of the source row (a row of ones times the squared table, as a row), the
  cross product (both operands passed through a sixteen-bit format, which at the exact values changes nothing),
  combines them into the expanded squared distance, clamps, roots, negates (as `0 − ·`), exponentiates, sums the
  128 × 4096 weights along the lanes, clamps that sum and divides.  Read at `(p, n)` this is `normWeight` of the
  block's row `p` and the table: the ones contribute a factor `1`, the zero accumulators and the `0 − ·` vanish.
-/
import proofs.«127764_j66271345377340_1_alg».proof.Proof.Gen.KernelIdeal.Skeleton
import proofs.«127764_j66271345377340_1_alg».proof.Proof.DistWeights
import proofs.«127764_j66271345377340_1_alg».proof.Proof.LibLayout
import proofs.«127764_j66271345377340_1_alg».proof.Proof.LibLaneSum
import proofs.«127764_j66271345377340_1_alg».proof.Proof.RowOps
import Idealize.ShloMosaic.Lib.ValueLayout

noncomputable section

namespace Cert.KernelIdeal.Body

open Cert.KernelIdeal Cert.KernelIdeal.Gen Cert.KernelIdeal.RowOps Idealize.ShloMosaic Idealize.ShloMosaic.ValueIdx
  Cert.DistWeights Cert.Layout Cert.LaneSum

variable (x0 : Vec Ideal S1x128x512 .f32) (x1 : Vec Ideal S4096x512 .f32)

/-! ## The body's stages, named -/

/-- The target block as a `[128, 512]` matrix. -/
def tgt : FVec Ideal S128x512 .f32 := shapeCast S128x512 x0 shapeCasts_S1x128x512_S128x512
/-- The source table (a cast to its own shape). -/
def src : FVec Ideal S4096x512 .f32 := shapeCast S4096x512 x1 shapeCasts_S4096x512_S4096x512

/-- The expanded squared distances of the block's rows to every source row. -/
def sqDistBlock : FVec Ideal S128x4096 .f32 :=
  subf
    (addf
      (broadcastTo S128x4096
        (shapeCast S128x1
          (multiReduction .add [1] S128 (mulf (tgt x0) (tgt x0)) 0x00000000#32 reduces_S128x512_S128 (.inl rfl) rfl)
          shapeCasts_S128_S128x1)
        broadcasts_S128x1_S128x4096)
      (broadcastTo S128x4096
        (matmul dot_S1x512_S4096x512_S1x4096_1_1_0_0_n_n none (broadcast S1x512 (Scalar.ofBits (F := Ideal) .f32 0x3F800000#32))
          (mulf (src x1) (src x1)) (constant (F := Ideal) S1x4096 .f32 0x00000000#32))
        broadcasts_S1x4096_S128x4096))
    (mulf (broadcast S128x4096 (Scalar.ofBits (F := Ideal) .f32 0x40000000#32))
      (matmul dot_S128x512_S4096x512_S128x4096_1_1_0_0_n_n none (truncf .bf16 (tgt x0) bitsLt_bf16_f32)
        (truncf .bf16 (src x1) bitsLt_bf16_f32) (constant (F := Ideal) S128x4096 .f32 0x00000000#32)))

/-- The weights of every source row seen from each of the block's rows. -/
def weightBlock : FVec Ideal S128x4096 .f32 :=
  exp (subf (broadcast S128x4096 (Scalar.ofBits (F := Ideal) .f32 0x00000000#32))
    (sqrt (maximumf (sqDistBlock x0 x1) (broadcast S128x4096 (Scalar.ofBits (F := Ideal) .f32 0x2B8CBCCC#32)))))

/-- The stored value is the weights divided by their clamped lane sums, as a `[1, 128, 4096]` block. -/
theorem pay_eq :
    k0_pay1 (F := Ideal) x0 x1
      = shapeCast S1x128x4096
          (divf (weightBlock x0 x1)
            (broadcastTo S128x4096
              (maximumf
                (shapeCast S128x1
                  (multiReduction .add [1] S128 (weightBlock x0 x1) 0x00000000#32 reduces_S128x4096_S128 (.inl rfl) rfl)
                  shapeCasts_S128_S128x1)
                (broadcast S128x1 (Scalar.ofBits (F := Ideal) .f32 0x2B8CBCCC#32)))
              broadcasts_S128x1_S128x4096))
          shapeCasts_S128x4096_S1x128x4096 := rfl

/-! ## Each stage at an index -/

theorem tgt_apply (p : Fin 128) (d : Fin 512) : tgt x0 (ix2 p d) = x0 (ix3 (0 : Fin 1) p d) :=
  shapeCast_1ab_ab_apply x0 shapeCasts_S1x128x512_S128x512 p d

theorem src_eq : src x1 = x1 := shapeCast_self x1 shapeCasts_S4096x512_S4096x512

/-- The float word for `1.0` is the extended real `1`. -/
theorem one_word : Ideal.ofBits .f32 0x3F800000#32 = 1 := IdealRules.sign_bit.ideal_onePat .f32

theorem sqDistBlock_apply (p : Fin 128) (n : Fin 4096) :
    sqDistBlock x0 x1 (ix2 p n)
      = sqDist (fun d => x0 (ix3 (0 : Fin 1) p d)) (fun n d => x1 (ix2 n d)) n := by
  unfold sqDistBlock sqDist
  rw [subf_apply, addf_apply, mulf_apply, broadcast_apply, broadcastTo_a1_ab_apply, shapeCast_a_a1_apply,
    laneSum_apply, broadcastTo_1b_ab_apply, rowProduct_apply, crossProduct_apply]
  simp only [mulf_apply, broadcast_apply, truncf_apply, tgt_apply, src_eq]
  show ((∑ d : Fin 512, x0 (ix3 (0 : Fin 1) p d) * x0 (ix3 (0 : Fin 1) p d))
      + ∑ d : Fin 512, Ideal.ofBits .f32 0x3F800000#32 * (x1 (ix2 n d) * x1 (ix2 n d)))
      - Ideal.ofBits .f32 0x40000000#32 * (∑ d : Fin 512, x0 (ix3 (0 : Fin 1) p d) * x1 (ix2 n d)) = _
  simp only [one_word, one_mul]

theorem weightBlock_apply (p : Fin 128) (n : Fin 4096) :
    weightBlock x0 x1 (ix2 p n)
      = weight (fun d => x0 (ix3 (0 : Fin 1) p d)) (fun n d => x1 (ix2 n d)) n := by
  unfold weightBlock weight
  show Ideal.exp (Ideal.ofBits .f32 0x00000000#32
      - Ideal.sqrt (max (sqDistBlock x0 x1 (ix2 p n)) (Ideal.ofBits .f32 0x2B8CBCCC#32))) = _
  rw [sqDistBlock_apply, Ideal.ofBits_zero_f32, zero_sub]

/-- THE STORED VALUE at `(u, p, n)`: the normalised weight of source row `n` seen from the block's row `p`. -/
theorem pay_apply (u : Fin 1) (p : Fin 128) (n : Fin 4096) :
    k0_pay1 (F := Ideal) x0 x1 (ix3 u p n)
      = normWeight (fun d => x0 (ix3 (0 : Fin 1) p d)) (fun n d => x1 (ix2 n d)) n := by
  rw [pay_eq, shapeCast_ab_1ab_apply, divf_apply, broadcastTo_a1_ab_apply, maximumf_apply, shapeCast_a_a1_apply,
    laneSum_apply, broadcast_apply, weightBlock_apply]
  simp only [weightBlock_apply]
  rfl

/-- The stored block as one function of the block index. -/
theorem pay_fun :
    k0_pay1 (F := Ideal) x0 x1
      = fun j : S1x128x4096.Idx => normWeight
          (fun d => x0 (ix3 (0 : Fin 1) (⟨(j 1).val, (j 1).isLt⟩ : Fin 128) d)) (fun n d => x1 (ix2 n d))
          (⟨(j 2).val, (j 2).isLt⟩ : Fin 4096) := by
  funext j
  obtain ⟨u, p, n, rfl⟩ : ∃ (u : Fin 1) (p : Fin 128) (n : Fin 4096), j = ix3 u p n := ⟨j 0, j 1, j 2, eq_ix3 j⟩
  exact pay_apply x0 x1 u p n

end Cert.KernelIdeal.Body

end
-- ==== Proof.KernelArray.lean ====
/-
  From the blocks to the whole result array.

  The grid has 32 × 2 points.  At point `(b, h)` the output block is rows `128·h … 128·h + 127` of batch `b`, all 4096
  columns; the target window's block is the same rows of batch `b` of the target read-out array, all 512 features;
  the source window's block is the whole source read-out array at every point.  So what a point writes back is the
  restriction of ONE function `G` of the two read-out arrays to its block, the 64 blocks tile the result array, and
  the array after the run is `G`.
-/
import proofs.«127764_j66271345377340_1_alg».proof.Proof.Gen.KernelIdeal.Value
import proofs.«127764_j66271345377340_1_alg».proof.Proof.KernelRow

noncomputable section

namespace Cert.KernelIdeal.ArrValue

open Cert.KernelIdeal Cert.KernelIdeal.Gen Cert.KernelIdeal.Value Cert.KernelIdeal.Body Idealize.ShloMosaic
  Idealize.ShloMosaic.TcCoe Idealize.SL.Sem Idealize.ShloMosaic.ValueIdx Cert.DistWeights
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three index maps over the 64 grid points: the target block moves with the output block on the batch and
    row axes, and every other block coordinate is zero. -/
theorem blockIdx : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = 0
    ∧ win0_1.index t (1 : Fin 2) = 0
    ∧ win0_2.index t (2 : Fin 3) = 0 :=
  (by decide +kernel : ∀ t : Fin grid0.N, _)

/-- Every (batch, half) pair is some point's output block. -/
theorem blockOnto : ∀ (q0 : Fin 32) (q1 : Fin 2), ∃ t : Fin cfg0.N, win0_2.index t = ![q0.val, q1.val, 0] :=
  (by decide +kernel : ∀ (q0 : Fin 32) (q1 : Fin 2), ∃ t : Fin grid0.N, win0_2.index t = ![q0.val, q1.val, 0])

/-- `normWeight` respects equality of its three arguments. -/
theorem normWeight_congr {u u' : Fin 512 → EReal} {S S' : Fin 4096 → Fin 512 → EReal} {n n' : Fin 4096}
    (hu : u = u') (hS : S = S') (hn : n = n') : normWeight u S n = normWeight u' S' n' := by
  subst hu hS hn; rfl

/-- WHAT POINT `t` WRITES BACK is block `t` of `G` of the two read-out arrays as the region finds them. -/
theorem flushed_eq (c : Dev nD) (t : Fin cfg0.N) :
    (dats m 0 c).flushed 2 t
      = ((cfg0.win 2).blk t).view.read (Elt Ideal) (G (V m c main_v18) (V m c main_v9)) := by
  rw [flushed2]
  unfold out0_2
  rw [View.canon_unit_zero zeros3]
  simp only [View.ld_unit_zero (S := S1x128x512) zeros3, View.ld_unit_zero (S := S4096x512) zeros2]
  rw [pay_fun]
  obtain ⟨e0, e1, e2, e3, e4, e5⟩ := blockIdx t
  funext j
  show normWeight (fun d => V m c main_v18 (((cfg0.win 0).blk t).view.emb (ix3 (0 : Fin 1) (⟨(j 1).val, (j 1).isLt⟩ : Fin 128) d)))
      (fun n d => V m c main_v9 (((cfg0.win 1).blk t).view.emb (ix2 n d))) (⟨(j 2).val, (j 2).isLt⟩ : Fin 4096)
    = normWeight
      (fun d => V m c main_v18 (ix3 (⟨((((cfg0.win 2).blk t).view.emb j) 0).val, ((((cfg0.win 2).blk t).view.emb j) 0).isLt⟩ : Fin 32)
        (⟨((((cfg0.win 2).blk t).view.emb j) 1).val, ((((cfg0.win 2).blk t).view.emb j) 1).isLt⟩ : Fin 256) d))
      (fun n d => V m c main_v9 (ix2 n d))
      (⟨((((cfg0.win 2).blk t).view.emb j) 2).val, ((((cfg0.win 2).blk t).view.emb j) 2).isLt⟩ : Fin 4096)
  have hj0 : (j 0).val < 1 := (j 0).isLt
  have hj1 : (j 1).val < 128 := (j 1).isLt
  have hj2 : (j 2).val < 4096 := (j 2).isLt
  refine normWeight_congr (funext fun d => congrArg (V m c main_v18) (funext fun a => Fin.ext ?_))
    (funext fun n => funext fun d => congrArg (V m c main_v9) (funext fun a => Fin.ext ?_)) (Fin.ext ?_)
  · match a with
    | ⟨0, _⟩ =>
      show win0_0.index t (0 : Fin 3) * 1 + 1 * 0 = win0_2.index t (0 : Fin 3) * 1 + 1 * (j 0).val
      omega
    | ⟨1, _⟩ =>
      show win0_0.index t (1 : Fin 3) * 128 + 1 * (j 1).val = win0_2.index t (1 : Fin 3) * 128 + 1 * (j 1).val
      omega
    | ⟨2, _⟩ =>
      show win0_0.index t (2 : Fin 3) * 512 + 1 * d.val = d.val
      omega
  · match a with
    | ⟨0, _⟩ =>
      show win0_1.index t (0 : Fin 2) * 4096 + 1 * n.val = n.val
      omega
    | ⟨1, _⟩ =>
      show win0_1.index t (1 : Fin 2) * 512 + 1 * d.val = d.val
      omega
  · show (j 2).val = win0_2.index t (2 : Fin 3) * 4096 + 1 * (j 2).val
    omega

/-- An index of the array is in point `t`'s block iff each coordinate is in the block's range on its axis. -/
theorem mem_blk (t : Fin cfg0.N) (i : S32x256x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v19).slice (win0_2.rect t)).set ↔ _
  rw [View.set_slice_whole, Rect.mem_set_unit]
  exact Iff.rfl

/-- THE COVER: entry `(b, r, n)` lies in the block of the point whose output block index is `(b, r / 128, 0)`. -/
theorem covered (i : S32x256x4096.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 4096 := (i 2).isLt
  obtain ⟨t, ht⟩ := blockOnto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 128 ≤ (i 1).val ∧ (i 1).val < win0_2.index t (1 : Fin 3) * 128 + 128
    omega
  | ⟨2, _⟩ =>
    show win0_2.index t (2 : Fin 3) * 4096 ≤ (i 2).val ∧ (i 2).val < win0_2.index t (2 : Fin 3) * 4096 + 4096
    omega

/-- THE ARRAY after the run is `G` of the two read-out arrays as the region finds them. -/
theorem final (c : Dev nD) : (dats m 0 c).arrAt 2 cfg0.N = G (V m c main_v18) (V m c main_v9) :=
  (dats m 0 c).arrAt_eq_of_cover 2 (G (V m c main_v18) (V m c main_v9)) (fun t _ => flushed_eq m c t) covered

/-- The kernel's run re-posted: the result array at `G` of the two read-out arrays, the arguments unchanged. -/
theorem run : θ_run defs (onTc (τ := τ) (main (F := Ideal))) ⟨m, fun _ => 0, ρ⟩ fun r => ∀ c : Dev nD,
      r.2.mem ((c : Thread nD τ).loc main_v19) = G (V m c main_v18) (V m c main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrValue

end
-- ==== Proof.Readouts.lean ====
/-
  The two read-out arrays.

  Both programs begin with the same nineteen host operations: each mask is converted to floats and divided by the
  clamped sum of its absolute values along its last axis, and the resulting weights are contracted with the inputs,
  giving the source read-out `[4096, 512]` and the target read-out `[32, 256, 512]`.  The kernel's region finds
  exactly these two arrays in its two input windows; as terms of the argument arrays they are the reference's own
  stages, operation for operation.
-/
import proofs.«127764_j66271345377340_1_alg».proof.Proof.Gen.KernelIdeal.Frame
import proofs.«127764_j66271345377340_1_alg».proof.Proof.Gen.ReferenceIdeal.Read
import Idealize.ShloMosaic.Lib.StableHlo.Run

noncomputable section

namespace Cert.KernelIdeal.Readouts

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The target read-out array, as the region finds it, is the reference's stage of the same two arguments. -/
theorem target (c : Dev nD) :
    (V m c main_v18 : S32x256x512.Idx → EReal)
      = Cert.ReferenceIdeal.Read.val_main_v18 (F := Ideal) (m ((c : Thread nD τ).loc main_arg1))
          (m ((c : Thread nD τ).loc main_arg3)) := by
  dsimp only [V, hostOps0]
  after_results
  rfl

/-- The source read-out array, as the region finds it, is the reference's stage of the same two arguments. -/
theorem source (c : Dev nD) :
    (V m c main_v9 : S4096x512.Idx → EReal)
      = Cert.ReferenceIdeal.Read.val_main_v9 (F := Ideal) (m ((c : Thread nD τ).loc main_arg0))
          (m ((c : Thread nD τ).loc main_arg2)) := by
  dsimp only [V, hostOps0]
  after_results
  rfl

end Cert.KernelIdeal.Readouts

end
-- ==== Proof.lean ====
/-
  The certificate's claims.

  The kernel computes, for every target read-out row `(b, r)` and source read-out row `n`, the weight
  `exp (−√(max (‖t‖² + ‖s‖² − 2·⟨t, s⟩) ε))` and divides each row of weights by its clamped sum; the reference does the
  same with the absolute values of the weights in the normaliser.  Both start from the same two read-out arrays,
  computed from the arguments by the same host operations.

  At the exact values the two results are one function `G` of the two read-out arrays, entry by entry: the kernel's
  side is the block-wise value of the generated frame run, read at an index and assembled over the 64 grid points;
  the reference's side is its generated run read one operation at a time.  The only law between them is that an
  exponential is nonnegative, so it is its own absolute value; the sums, products and clamps are the same terms on
  both sides, and no finiteness of the inputs is used.  The three frames are the generated ones, and the kernel's
  idealization rewrote no operation, so that claim is `True`.
-/
import proofs.«127764_j66271345377340_1_alg».proof.Defs
import proofs.«127764_j66271345377340_1_alg».proof.Proof.Gen.Kernel
import proofs.«127764_j66271345377340_1_alg».proof.Proof.Gen.Kernel.Skeleton
import proofs.«127764_j66271345377340_1_alg».proof.Proof.Gen.Kernel.Launch
import proofs.«127764_j66271345377340_1_alg».proof.Proof.Gen.Kernel.Points
import proofs.«127764_j66271345377340_1_alg».proof.Proof.Gen.Kernel.Frame
import proofs.«127764_j66271345377340_1_alg».proof.Proof.Gen.KernelIdeal
import proofs.«127764_j66271345377340_1_alg».proof.Proof.Gen.KernelIdeal.Skeleton
import proofs.«127764_j66271345377340_1_alg».proof.Proof.Gen.KernelIdeal.Launch
import proofs.«127764_j66271345377340_1_alg».proof.Proof.Gen.KernelIdeal.Points
import proofs.«127764_j66271345377340_1_alg».proof.Proof.Gen.KernelIdeal.Frame
import proofs.«127764_j66271345377340_1_alg».proof.Proof.Gen.ReferenceIdeal
import proofs.«127764_j66271345377340_1_alg».proof.Proof.Gen.Pre_finite_inputs
import proofs.«127764_j66271345377340_1_alg».proof.Proof.Gen.KernelIdeal.Value
import proofs.«127764_j66271345377340_1_alg».proof.Proof.Gen.ReferenceIdeal.Run
import proofs.«127764_j66271345377340_1_alg».proof.Proof.Gen.ReferenceIdeal.Read
import proofs.«127764_j66271345377340_1_alg».proof.Proof.DistWeights
import proofs.«127764_j66271345377340_1_alg».proof.Proof.RefIsG
import proofs.«127764_j66271345377340_1_alg».proof.Proof.KernelArray
import proofs.«127764_j66271345377340_1_alg».proof.Proof.Readouts
import Idealize.ShloMosaic.Adequacy
import Idealize.ShloMosaic.Init

noncomputable section

namespace Cert.Proof

open Idealize.ShloMosaic Idealize.SL.Sem Cert.DistWeights

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array ends at `G` of the two read-out arrays its region finds, and the
    reference's at `G` of its own two read-out stages; from arguments that agree these are the same arrays. -/
theorem algebraic : Cert.algebraic_KernelIdeal_ReferenceIdeal := by
  intro m ρ m' ρ' _ hagree
  refine ⟨fun c => G (Cert.KernelIdeal.Gen.V m c Cert.KernelIdeal.main_v18) (Cert.KernelIdeal.Gen.V m c Cert.KernelIdeal.main_v9),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq, (hagree c).1, (hagree c).2.1,
    (hagree c).2.2.1, (hagree c).2.2.2]
  exact (congrArg₂ G (Cert.KernelIdeal.Readouts.target m c) (Cert.KernelIdeal.Readouts.source m c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
